-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x10000 .f32) (main_arg1 : FVec F S10000x128 .f32) (main_arg2 : FVec F S128x128 .f32) (main_arg3 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S640x10000 : Shape := ⟨2, ![640, 10000]⟩
abbrev S640x128 : Shape := ⟨2, ![640, 128]⟩

abbrev nBuf : Space → Nat
  | .hbm => 6
  | .vmem => 7
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S640x10000, .f32⟩
  | .local _ .vmem, ⟨4, _⟩ => ⟨S640x10000, .f32⟩
  | .local _ .vmem, ⟨5, _⟩ => ⟨S640x128, .f32⟩
  | .local _ .vmem, ⟨6, _⟩ => ⟨S640x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S640x10000_S640x10000_0_0 : ∀ a, (![0, 0] : Fin 2 → Nat) a + S640x10000.size a ≤ S640x10000.size a
  h_S640x10000 : 0 < S640x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S640x128 : S1x128.Broadcasts S640x128
  inb_S640x128_S640x128_0_0 : ∀ a, (![0, 0] : Fin 2 → Nat) a + S640x128.size a ≤ S640x128.size a
  h_S640x128 : 0 < S640x128.numel
  dot_S640x10000_S10000x128_S640x128_1_0_0_1_n_n_wf : DotDims.WF S640x10000 S10000x128 S640x128 [1] [0] [0] [1] [] []
  dot_S640x128_S128x128_S640x128_1_0_0_1_n_n_wf : DotDims.WF S640x128 S128x128 S640x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S640x10000.size a < S10000x10000.size a
  hwx0_3 : ∀ i : grid0.Coords, EltTy.bits .f32 = 32 ∨ (Rect.unit (s := S10000x10000) (fun a => cc0_transform_3 i a * S640x10000.size a) (fun a => (Pipeline.Clip.of (cc0_transform_3 i a) (S640x10000.size a) (S10000x10000.size a)).extent (S640x10000.size a)) fun a => Pipeline.Clip.inb (Pipeline.Clip.ok_of (hstart0_3 i a))).WholeWords (EltTy.packing .f32)
  hwxs0_3 : ∀ i : grid0.Coords, EltTy.bits .f32 = 32 ∨ (Rect.unit (s := S640x10000) (fun _ => 0) (fun a => (Pipeline.Clip.of (cc0_transform_3 i a) (S640x10000.size a) (S10000x10000.size a)).extent (S640x10000.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S640x128.size a < S10000x128.size a
  hwx0_4 : ∀ i : grid0.Coords, EltTy.bits .f32 = 32 ∨ (Rect.unit (s := S10000x128) (fun a => cc0_transform_4 i a * S640x128.size a) (fun a => (Pipeline.Clip.of (cc0_transform_4 i a) (S640x128.size a) (S10000x128.size a)).extent (S640x128.size a)) fun a => Pipeline.Clip.inb (Pipeline.Clip.ok_of (hstart0_4 i a))).WholeWords (EltTy.packing .f32)
  hwxs0_4 : ∀ i : grid0.Coords, EltTy.bits .f32 = 32 ∨ (Rect.unit (s := S640x128) (fun _ => 0) (fun a => (Pipeline.Clip.of (cc0_transform_4 i a) (S640x128.size a) (S10000x128.size a)).extent (S640x128.size a)) fun a => (Nat.zero_add _).trans_le (Pipeline.Clip.extent_le (Pipeline.Clip.ok_of (hstart0_4 i a)))).WholeWords (EltTy.packing .f32)

variable [Facts₀]

def dot_S640x10000_S10000x128_S640x128_1_0_0_1_n_n : DotDims S640x10000 S10000x128 S640x128 where
  lhsContracting := [1]
  rhsContracting := [0]
  lhsNonContracting := [0]
  rhsNonContracting := [1]
  lhsBatch := []
  rhsBatch := []
  wf := dot_S640x10000_S10000x128_S640x128_1_0_0_1_n_n_wf
def dot_S640x128_S128x128_S640x128_1_0_0_1_n_n : DotDims S640x128 S128x128 S640x128 where
  lhsContracting := [1]
  rhsContracting := [0]
  lhsNonContracting := [0]
  rhsNonContracting := [1]
  lhsBatch := []
  rhsBatch := []
  wf := dot_S640x128_S128x128_S640x128_1_0_0_1_n_n_wf

abbrev win0_0 : Pipeline.Window sig grid0 :=
  Pipeline.Window.ofSpec (Memref.whole main_arg1) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_arg0) S640x10000.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v1) S640x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S_, .f32⟩
  | .hbm, ⟨15, _⟩ => ⟨S10000x128, .f32⟩
  | .hbm, ⟨16, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BodyBits.lean ====
/-
  The kernel body of the graph-convolution layer at one grid point, as a triple over its staging buffers.

  At a point the body reads four whole staging buffers — a block of 640 rows of the adjacency, the whole feature
  matrix, the projection, the bias row — and overwrites a fifth, the output block, with ONE pure function of what it
  read: the block's rows against the features, that against the projection, plus the bias row, through the logistic
  function. It reads the output buffer once and uses nothing of it. So whatever the five buffers hold, the first four
  end holding what they held and the fifth the function of them; nothing else is touched.
-/
import proofs.«160348_g65781719105877_cont_9to1c4b_269_17_alg».proof.Proof.Gen.Kernel.Skeleton
import proofs.«160348_g65781719105877_cont_9to1c4b_269_17_alg».proof.Proof.Gen.Kernel.Launch
import proofs.«160348_g65781719105877_cont_9to1c4b_269_17_alg».proof.Proof.Gen.Kernel.Points
import Idealize.ShloMosaic.Lib.Pipeline.Kit
import Idealize.ShloMosaic.Lib.Tactic

set_option maxRecDepth 16384

noncomputable section

namespace Cert.Kernel.Body

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The kernel names no variant. -/
abbrev 𝒱₀ : Variants := Variants.none

/-- The body on staging buffers `s0`, `s1`, `s2` (the features', the projection's and the bias row's one buffer
    each), `s3` (one of the adjacency block's two) and `s4` (one of the output block's two), holding `X0 … X4`:
    four whole loads, the pure function of them, the dead load of the output's buffer, one whole store. The output's
    buffer ends holding that function of the other four, which are unchanged. -/
theorem sound_body (c : Dev nD) (E : Set ℕ) (i : grid0.Coords) (s0 : Fin 1) (s1 : Fin 1) (s2 : Fin 1) (s3 : Fin 2) (s4 : Fin 2)
    (X0 : S10000x128.Idx → Elt F .f32) (X1 : S128x128.Idx → Elt F .f32) (X2 : S1x128.Idx → Elt F .f32)
    (X3 : S640x10000.Idx → Elt F .f32) (X4 : S640x128.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4)
          ∗ (iprop(owns (c : Thread nD τ) (stage0_0 s0) fullShare X0 ∗ owns (c : Thread nD τ) (stage0_1 s1) fullShare X1
                  ∗ owns (c : Thread nD τ) (stage0_2 s2) fullShare X2 ∗ owns (c : Thread nD τ) (stage0_3 s3) fullShare X3
                  ∗ owns (c : Thread nD τ) (stage0_4 s4) fullShare (k0_pay1 X3 X0 X1 X2)) -∗ K ⟨⟩))
      ⊢ wp frame (wpE (defs₀ (F := F)) 𝒱₀ c none) E
          (cc0__fused_kernel i (stage0_0 s0) (hstage0_0 s0) (stage0_1 s1) (hstage0_1 s1) (stage0_2 s2) (hstage0_2 s2)
            (stage0_3 s3) (hstage0_3 s3) (stage0_4 s4) (hstage0_4 s4)) K := by
  -- every access is at offsets zero and the buffer's own sizes, the whole buffer: a load reads the contents, the
  -- unmasked store writes the payload, at whichever of its window's buffers each memref is
  have hz : (![0, 0] : Fin 2 → Nat) = fun _ => 0 := funext fun a => by fin_cases a <;> rfl
  fin_cases s0 <;> fin_cases s1 <;> fin_cases s2 <;> fin_cases s3 <;> fin_cases s4
  · -- the adjacency block's buffer 0, the output block's buffer 0
    have hr0 : (Memref.whole cc0_stg0_0 : Memref sig .tc _ _ _).view.readAt (Elt F) (Rect.unit (s := S10000x128) ![0, 0] S10000x128.size
        inb_S10000x128_S10000x128_0_0).toLoadRect = id := funext (Memref.readAt_unit_zero (Elt F) cc0_stg0_0 hz _)
    have hr1 : (Memref.whole cc0_stg1_0 : Memref sig .tc _ _ _).view.readAt (Elt F) (Rect.unit (s := S128x128) ![0, 0] S128x128.size
        inb_S128x128_S128x128_0_0).toLoadRect = id := funext (Memref.readAt_unit_zero (Elt F) cc0_stg1_0 hz _)
    have hr2 : (Memref.whole cc0_stg2_0 : Memref sig .tc _ _ _).view.readAt (Elt F) (Rect.unit (s := S1x128) ![0, 0] S1x128.size
        inb_S1x128_S1x128_0_0).toLoadRect = id := funext (Memref.readAt_unit_zero (Elt F) cc0_stg2_0 hz _)
    have hr3 : (Memref.whole cc0_stg3_0 : Memref sig .tc _ _ _).view.readAt (Elt F) (Rect.unit (s := S640x10000) ![0, 0] S640x10000.size
        inb_S640x10000_S640x10000_0_0).toLoadRect = id := funext (Memref.readAt_unit_zero (Elt F) cc0_stg3_0 hz _)
    have hw4 : ∀ f w, (((Memref.whole cc0_stg4_0).access (Rect.unit (s := S640x128) ![0, 0] S640x128.size inb_S640x128_S640x128_0_0)) :
        View sig .tc _ _ _).write (Elt F) f w Finset.univ = w := Memref.write_access_unit_zero_univ (Elt F) cc0_stg4_0 hz _
    simp only [owns_whole_eq, cc0__fused_kernel_eq_skeleton]; unfold cc0__fused_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k0_pay1 f3 f0 f1 f2; isplitr; · ipureintro; rw [hf0, hf1, hf2, hf3]
      iexact H4
  · -- the adjacency block's buffer 0, the output block's buffer 1
    have hr0 : (Memref.whole cc0_stg0_0 : Memref sig .tc _ _ _).view.readAt (Elt F) (Rect.unit (s := S10000x128) ![0, 0] S10000x128.size
        inb_S10000x128_S10000x128_0_0).toLoadRect = id := funext (Memref.readAt_unit_zero (Elt F) cc0_stg0_0 hz _)
    have hr1 : (Memref.whole cc0_stg1_0 : Memref sig .tc _ _ _).view.readAt (Elt F) (Rect.unit (s := S128x128) ![0, 0] S128x128.size
        inb_S128x128_S128x128_0_0).toLoadRect = id := funext (Memref.readAt_unit_zero (Elt F) cc0_stg1_0 hz _)
    have hr2 : (Memref.whole cc0_stg2_0 : Memref sig .tc _ _ _).view.readAt (Elt F) (Rect.unit (s := S1x128) ![0, 0] S1x128.size
        inb_S1x128_S1x128_0_0).toLoadRect = id := funext (Memref.readAt_unit_zero (Elt F) cc0_stg2_0 hz _)
    have hr3 : (Memref.whole cc0_stg3_0 : Memref sig .tc _ _ _).view.readAt (Elt F) (Rect.unit (s := S640x10000) ![0, 0] S640x10000.size
        inb_S640x10000_S640x10000_0_0).toLoadRect = id := funext (Memref.readAt_unit_zero (Elt F) cc0_stg3_0 hz _)
    have hw4 : ∀ f w, (((Memref.whole cc0_stg4_1).access (Rect.unit (s := S640x128) ![0, 0] S640x128.size inb_S640x128_S640x128_0_0)) :
        View sig .tc _ _ _).write (Elt F) f w Finset.univ = w := Memref.write_access_unit_zero_univ (Elt F) cc0_stg4_1 hz _
    simp only [owns_whole_eq, cc0__fused_kernel_eq_skeleton]; unfold cc0__fused_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k0_pay1 f3 f0 f1 f2; isplitr; · ipureintro; rw [hf0, hf1, hf2, hf3]
      iexact H4
  · -- the adjacency block's buffer 1, the output block's buffer 0
    have hr0 : (Memref.whole cc0_stg0_0 : Memref sig .tc _ _ _).view.readAt (Elt F) (Rect.unit (s := S10000x128) ![0, 0] S10000x128.size
        inb_S10000x128_S10000x128_0_0).toLoadRect = id := funext (Memref.readAt_unit_zero (Elt F) cc0_stg0_0 hz _)
    have hr1 : (Memref.whole cc0_stg1_0 : Memref sig .tc _ _ _).view.readAt (Elt F) (Rect.unit (s := S128x128) ![0, 0] S128x128.size
        inb_S128x128_S128x128_0_0).toLoadRect = id := funext (Memref.readAt_unit_zero (Elt F) cc0_stg1_0 hz _)
    have hr2 : (Memref.whole cc0_stg2_0 : Memref sig .tc _ _ _).view.readAt (Elt F) (Rect.unit (s := S1x128) ![0, 0] S1x128.size
        inb_S1x128_S1x128_0_0).toLoadRect = id := funext (Memref.readAt_unit_zero (Elt F) cc0_stg2_0 hz _)
    have hr3 : (Memref.whole cc0_stg3_1 : Memref sig .tc _ _ _).view.readAt (Elt F) (Rect.unit (s := S640x10000) ![0, 0] S640x10000.size
        inb_S640x10000_S640x10000_0_0).toLoadRect = id := funext (Memref.readAt_unit_zero (Elt F) cc0_stg3_1 hz _)
    have hw4 : ∀ f w, (((Memref.whole cc0_stg4_0).access (Rect.unit (s := S640x128) ![0, 0] S640x128.size inb_S640x128_S640x128_0_0)) :
        View sig .tc _ _ _).write (Elt F) f w Finset.univ = w := Memref.write_access_unit_zero_univ (Elt F) cc0_stg4_0 hz _
    simp only [owns_whole_eq, cc0__fused_kernel_eq_skeleton]; unfold cc0__fused_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k0_pay1 f3 f0 f1 f2; isplitr; · ipureintro; rw [hf0, hf1, hf2, hf3]
      iexact H4
  · -- the adjacency block's buffer 1, the output block's buffer 1
    have hr0 : (Memref.whole cc0_stg0_0 : Memref sig .tc _ _ _).view.readAt (Elt F) (Rect.unit (s := S10000x128) ![0, 0] S10000x128.size
        inb_S10000x128_S10000x128_0_0).toLoadRect = id := funext (Memref.readAt_unit_zero (Elt F) cc0_stg0_0 hz _)
    have hr1 : (Memref.whole cc0_stg1_0 : Memref sig .tc _ _ _).view.readAt (Elt F) (Rect.unit (s := S128x128) ![0, 0] S128x128.size
        inb_S128x128_S128x128_0_0).toLoadRect = id := funext (Memref.readAt_unit_zero (Elt F) cc0_stg1_0 hz _)
    have hr2 : (Memref.whole cc0_stg2_0 : Memref sig .tc _ _ _).view.readAt (Elt F) (Rect.unit (s := S1x128) ![0, 0] S1x128.size
        inb_S1x128_S1x128_0_0).toLoadRect = id := funext (Memref.readAt_unit_zero (Elt F) cc0_stg2_0 hz _)
    have hr3 : (Memref.whole cc0_stg3_1 : Memref sig .tc _ _ _).view.readAt (Elt F) (Rect.unit (s := S640x10000) ![0, 0] S640x10000.size
        inb_S640x10000_S640x10000_0_0).toLoadRect = id := funext (Memref.readAt_unit_zero (Elt F) cc0_stg3_1 hz _)
    have hw4 : ∀ f w, (((Memref.whole cc0_stg4_1).access (Rect.unit (s := S640x128) ![0, 0] S640x128.size inb_S640x128_S640x128_0_0)) :
        View sig .tc _ _ _).write (Elt F) f w Finset.univ = w := Memref.write_access_unit_zero_univ (Elt F) cc0_stg4_1 hz _
    simp only [owns_whole_eq, cc0__fused_kernel_eq_skeleton]; unfold cc0__fused_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k0_pay1 f3 f0 f1 f2; isplitr; · ipureintro; rw [hf0, hf1, hf2, hf3]
      iexact H4

end Cert.Kernel.Body

end
-- ==== Proof.RunBits.lean ====
/-
  The frame of the graph-convolution kernel as printed, at any float instance, from the body's triple.

  The frame claim says only that every weakly fair execution terminates without a fault and that the four argument
  arrays end as they began. Nothing in it reads the output array, so the proof data FORGET the output's staging
  buffer: the body is handed it at any contents and gives it back at any contents, and nothing of the body's
  arithmetic — two matrix products at the word level — is ever opened. What the frame needs of the body is what its
  triple gives: it terminates, faults nowhere, and leaves the four input buffers as it found them.

  The sixteen grid points stage 640 rows of the adjacency each; the last block overhangs the 10000-row array by 240
  rows, which its fetch leaves at words nothing names. The adjacency's buffer is therefore described only on the rows
  inside the array; past them the proof's filler is the zero word, which nothing reads.
-/
import proofs.«160348_g65781719105877_cont_9to1c4b_269_17_alg».proof.Proof.BodyBits
import proofs.«160348_g65781719105877_cont_9to1c4b_269_17_alg».proof.Proof.Gen.Kernel.Frame
import Idealize.ShloMosaic.Lib.Pipeline.Frame
import Idealize.ShloMosaic.Lib.Pipeline.FrameBody

set_option maxRecDepth 16384

noncomputable section

namespace Cert.Kernel.Body

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The adjacency's block at point `t`, as the fetch reads it: its rows inside the array. -/
abbrev ablk (c : Dev nD) (t : Fin cfg0.N) : (win0_3.xblock (grid0.coords t)).Idx → Elt F .f32 := iblk m c 3 t

/-- The proof data of the one pipeline on device `c`: the arrays as the region finds them; after the body the three
    resident inputs' buffers at their arrays and the adjacency's at its block filled out with the zero word; the
    output's buffer is forgotten (its entry here is never read); the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => win0_3.fill (grid0.coords t) (fun _ => Scalar.ofBits .f32 0#32) (ablk m c t)
    | ⟨4, _⟩ => fun _ => Scalar.ofBits .f32 0#32
  Φ _ := Pipeline.ΦA spec0 c
  q _ := fullShare
  owed _ := 0

/-- The windows the frame forgets: the output's. -/
abbrev forgotten : Fin cfg0.W → Bool := fun | 0 => false | 1 => false | 2 => false | 3 => false | 4 => true | ⟨_ + 5, h⟩ => absurd h (Nat.not_lt.2 (Nat.le_add_left _ _))

/-- What the body finds: the three resident inputs' buffers at their arrays, fetched at this point or not; -/
theorem before_0 (c : Dev nD) (t : Fin cfg0.N) (d) : (dats m 0 c).before (0 : Fin 5) t d = iblk m c 0 t :=
  before0_0_of m (dats m 0 c) rfl (fun _ => rfl) t d
theorem before_1 (c : Dev nD) (t : Fin cfg0.N) (d) : (dats m 0 c).before (1 : Fin 5) t d = iblk m c 1 t :=
  before0_1_of m (dats m 0 c) rfl (fun _ => rfl) t d
theorem before_2 (c : Dev nD) (t : Fin cfg0.N) (d) : (dats m 0 c).before (2 : Fin 5) t d = iblk m c 2 t :=
  before0_2_of m (dats m 0 c) rfl (fun _ => rfl) t d
/-- the adjacency's buffer just fetched — the block on the rows inside the array, `d` elsewhere. -/
theorem before_3 (c : Dev nD) (t : Fin cfg0.N) (d) :
    (dats m 0 c).before (3 : Fin 5) t d = win0_3.fill (grid0.coords t) d (ablk m c t) := by
  unfold Dat.before; rw [if_pos (fetch0_3 t)]; rfl

/-- The library's body obligation with the output's window forgotten, from the triple at the point's staging
    buffers: the resident inputs leave as they came, the adjacency's buffer leaves holding its block filled out with
    what it came with, and the output's buffer leaves holding something. -/
theorem body_obligation (c : Dev nD) : BodyObligationLoose (dats m 0 c) (defs₀ (F := F)) 𝒱₀ () Set.univ forgotten := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%X4, H4⟩⟩
  rw [before_0 m c t d0, before_1 m c t d1, before_2 m c t d2, before_3 m c t d3]
  iapply (sound_body (F := F) c Set.univ (grid0.coords t) (cfg0.slots t 0) (cfg0.slots t 1) (cfg0.slots t 2) (cfg0.slots t 3)
    (cfg0.slots t 4) (iblk m c 0 t) (iblk m c 1 t) (iblk m c 2 t) (win0_3.fill (grid0.coords t) d3 (ablk m c t)) X4 _)
  isplitl [H0 H1 H2 H3 H4]
  · isplitl [H0]
    · iexact H0
    isplitl [H1]
    · iexact H1
    isplitl [H2]
    · iexact H2
    isplitl [H3]
    · iexact H3
    · iexact H4
  iintro ⟨H0, H1, H2, H3, H4⟩
  isplitl [HΦ]; · iexact HΦ
  isplitl [Ho]; · iexact Ho
  isplitl [H0]
  · iexact H0
  isplitl [H1]
  · iexact H1
  isplitl [H2]
  · iexact H2
  isplitl [H3]
  · iexists d3
    change _ ⊢ owns (c : Thread nD τ) (stage0_3 (cfg0.slots t 3)) fullShare (win0_3.fill (grid0.coords t) d3
      (win0_3.cut (grid0.coords t) (win0_3.fill (grid0.coords t) (fun _ => Scalar.ofBits .f32 0#32) (ablk m c t))))
    rw [win0_3.cut_fill]; try iexact H3
  · iexists k0_pay1 (win0_3.fill (grid0.coords t) d3 (ablk m c t)) (iblk m c 0 t) (iblk m c 1 t) (iblk m c 2 t)
    iexact H4

-- the launch theorem's implicit arguments are found by unifying its conclusion with this one
set_option backward.isDefEq.respectTransparency.types false in
/-- At the compiled mesh, for any float values, from any memory with zero counters: every weakly fair execution of
    @main terminates; every input array ends at what the region found, the output array at its entry contents
    overwritten block by block by blocks nothing here constrains, every other array at what the region found. -/
theorem run_main :
    θ_run defs (onTc (τ := τ) (main (F := F))) (s₀ m ρ)
      (Pipeline.RDat.FramePost cfg0 (fun c => (dats m 0 c).toRForget forgotten) (V m)) :=
  Pipeline.RDat.θ_run_frame cfgs 0 launch0 defs₀ 𝒱₀ (fun c => (dats m 0 c).toRForget forgotten) m ρ main
    (hbody := fun c => (body_obligation m c).toRForget)
    (hshare := fun c => (dats m 0 c).share_full fun _ => rfl) (howed := fun _ _ => rfl)
    (V := V m) (hmain := hmain m 𝒱₀) (hA := fun _ _ => rfl) (hΦ := fun _ _ => rfl)

/-- The frame: the run above read at the four argument arrays — the three the pipeline stages are inputs, never
    written, and hold what the region found, which is what the program was launched with; the bias array bypasses
    the region. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(((dats m 0 c).toRForget_arrAt_iff (w := (3 : Fin 5)) rfl _ _).mp ((h c).1 3)).trans
        (((dats m 0 c).arrAt_in 3 rfl _).trans (V_main_arg0 m c)),
      (((dats m 0 c).toRForget_arrAt_iff (w := (0 : Fin 5)) rfl _ _).mp ((h c).1 0)).trans
        (((dats m 0 c).arrAt_in 0 rfl _).trans (V_main_arg1 m c)),
      (((dats m 0 c).toRForget_arrAt_iff (w := (1 : Fin 5)) rfl _ _).mp ((h c).1 1)).trans
        (((dats m 0 c).arrAt_in 1 rfl _).trans (V_main_arg2 m c)),
      ((h c).2 main_arg3 (Pipeline.mem_restRefs_of main_arg3 (by decide) (by decide))).trans (V_main_arg3 m c)⟩)
    (run_main m ρ)

end Cert.Kernel.Body

end
-- ==== Proof.BodyIdeal.lean ====
/-
  The kernel body of the graph-convolution layer at one grid point, as a triple over its staging buffers.

  At a point the body reads four whole staging buffers — a block of 640 rows of the adjacency, the whole feature
  matrix, the projection, the bias row — and overwrites a fifth, the output block, with ONE pure function of what it
  read: the block's rows against the features, that against the projection, plus the bias row, through the logistic
  function. It reads the output buffer once and uses nothing of it. So whatever the five buffers hold, the first four
  end holding what they held and the fifth the function of them; nothing else is touched.
-/
import proofs.«160348_g65781719105877_cont_9to1c4b_269_17_alg».proof.Proof.Gen.KernelIdeal.Skeleton
import proofs.«160348_g65781719105877_cont_9to1c4b_269_17_alg».proof.Proof.Gen.KernelIdeal.Launch
import proofs.«160348_g65781719105877_cont_9to1c4b_269_17_alg».proof.Proof.Gen.KernelIdeal.Points
import Idealize.ShloMosaic.Lib.Pipeline.Kit
import Idealize.ShloMosaic.Lib.Tactic

set_option maxRecDepth 16384

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The kernel names no variant. -/
abbrev 𝒱₀ : Variants := Variants.none

/-- The body on staging buffers `s0`, `s1`, `s2` (the features', the projection's and the bias row's one buffer
    each), `s3` (one of the adjacency block's two) and `s4` (one of the output block's two), holding `X0 … X4`:
    four whole loads, the pure function of them, the dead load of the output's buffer, one whole store. The output's
    buffer ends holding that function of the other four, which are unchanged. -/
theorem sound_body (c : Dev nD) (E : Set ℕ) (i : grid0.Coords) (s0 : Fin 1) (s1 : Fin 1) (s2 : Fin 1) (s3 : Fin 2) (s4 : Fin 2)
    (X0 : S10000x128.Idx → Elt F .f32) (X1 : S128x128.Idx → Elt F .f32) (X2 : S1x128.Idx → Elt F .f32)
    (X3 : S640x10000.Idx → Elt F .f32) (X4 : S640x128.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4)
          ∗ (iprop(owns (c : Thread nD τ) (stage0_0 s0) fullShare X0 ∗ owns (c : Thread nD τ) (stage0_1 s1) fullShare X1
                  ∗ owns (c : Thread nD τ) (stage0_2 s2) fullShare X2 ∗ owns (c : Thread nD τ) (stage0_3 s3) fullShare X3
                  ∗ owns (c : Thread nD τ) (stage0_4 s4) fullShare (k0_pay1 X3 X0 X1 X2)) -∗ K ⟨⟩))
      ⊢ wp frame (wpE (defs₀ (F := F)) 𝒱₀ c none) E
          (cc0__fused_kernel i (stage0_0 s0) (hstage0_0 s0) (stage0_1 s1) (hstage0_1 s1) (stage0_2 s2) (hstage0_2 s2)
            (stage0_3 s3) (hstage0_3 s3) (stage0_4 s4) (hstage0_4 s4)) K := by
  -- every access is at offsets zero and the buffer's own sizes, the whole buffer: a load reads the contents, the
  -- unmasked store writes the payload, at whichever of its window's buffers each memref is
  have hz : (![0, 0] : Fin 2 → Nat) = fun _ => 0 := funext fun a => by fin_cases a <;> rfl
  fin_cases s0 <;> fin_cases s1 <;> fin_cases s2 <;> fin_cases s3 <;> fin_cases s4
  · -- the adjacency block's buffer 0, the output block's buffer 0
    have hr0 : (Memref.whole cc0_stg0_0 : Memref sig .tc _ _ _).view.readAt (Elt F) (Rect.unit (s := S10000x128) ![0, 0] S10000x128.size
        inb_S10000x128_S10000x128_0_0).toLoadRect = id := funext (Memref.readAt_unit_zero (Elt F) cc0_stg0_0 hz _)
    have hr1 : (Memref.whole cc0_stg1_0 : Memref sig .tc _ _ _).view.readAt (Elt F) (Rect.unit (s := S128x128) ![0, 0] S128x128.size
        inb_S128x128_S128x128_0_0).toLoadRect = id := funext (Memref.readAt_unit_zero (Elt F) cc0_stg1_0 hz _)
    have hr2 : (Memref.whole cc0_stg2_0 : Memref sig .tc _ _ _).view.readAt (Elt F) (Rect.unit (s := S1x128) ![0, 0] S1x128.size
        inb_S1x128_S1x128_0_0).toLoadRect = id := funext (Memref.readAt_unit_zero (Elt F) cc0_stg2_0 hz _)
    have hr3 : (Memref.whole cc0_stg3_0 : Memref sig .tc _ _ _).view.readAt (Elt F) (Rect.unit (s := S640x10000) ![0, 0] S640x10000.size
        inb_S640x10000_S640x10000_0_0).toLoadRect = id := funext (Memref.readAt_unit_zero (Elt F) cc0_stg3_0 hz _)
    have hw4 : ∀ f w, (((Memref.whole cc0_stg4_0).access (Rect.unit (s := S640x128) ![0, 0] S640x128.size inb_S640x128_S640x128_0_0)) :
        View sig .tc _ _ _).write (Elt F) f w Finset.univ = w := Memref.write_access_unit_zero_univ (Elt F) cc0_stg4_0 hz _
    simp only [owns_whole_eq, cc0__fused_kernel_eq_skeleton]; unfold cc0__fused_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k0_pay1 f3 f0 f1 f2; isplitr; · ipureintro; rw [hf0, hf1, hf2, hf3]
      iexact H4
  · -- the adjacency block's buffer 0, the output block's buffer 1
    have hr0 : (Memref.whole cc0_stg0_0 : Memref sig .tc _ _ _).view.readAt (Elt F) (Rect.unit (s := S10000x128) ![0, 0] S10000x128.size
        inb_S10000x128_S10000x128_0_0).toLoadRect = id := funext (Memref.readAt_unit_zero (Elt F) cc0_stg0_0 hz _)
    have hr1 : (Memref.whole cc0_stg1_0 : Memref sig .tc _ _ _).view.readAt (Elt F) (Rect.unit (s := S128x128) ![0, 0] S128x128.size
        inb_S128x128_S128x128_0_0).toLoadRect = id := funext (Memref.readAt_unit_zero (Elt F) cc0_stg1_0 hz _)
    have hr2 : (Memref.whole cc0_stg2_0 : Memref sig .tc _ _ _).view.readAt (Elt F) (Rect.unit (s := S1x128) ![0, 0] S1x128.size
        inb_S1x128_S1x128_0_0).toLoadRect = id := funext (Memref.readAt_unit_zero (Elt F) cc0_stg2_0 hz _)
    have hr3 : (Memref.whole cc0_stg3_0 : Memref sig .tc _ _ _).view.readAt (Elt F) (Rect.unit (s := S640x10000) ![0, 0] S640x10000.size
        inb_S640x10000_S640x10000_0_0).toLoadRect = id := funext (Memref.readAt_unit_zero (Elt F) cc0_stg3_0 hz _)
    have hw4 : ∀ f w, (((Memref.whole cc0_stg4_1).access (Rect.unit (s := S640x128) ![0, 0] S640x128.size inb_S640x128_S640x128_0_0)) :
        View sig .tc _ _ _).write (Elt F) f w Finset.univ = w := Memref.write_access_unit_zero_univ (Elt F) cc0_stg4_1 hz _
    simp only [owns_whole_eq, cc0__fused_kernel_eq_skeleton]; unfold cc0__fused_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k0_pay1 f3 f0 f1 f2; isplitr; · ipureintro; rw [hf0, hf1, hf2, hf3]
      iexact H4
  · -- the adjacency block's buffer 1, the output block's buffer 0
    have hr0 : (Memref.whole cc0_stg0_0 : Memref sig .tc _ _ _).view.readAt (Elt F) (Rect.unit (s := S10000x128) ![0, 0] S10000x128.size
        inb_S10000x128_S10000x128_0_0).toLoadRect = id := funext (Memref.readAt_unit_zero (Elt F) cc0_stg0_0 hz _)
    have hr1 : (Memref.whole cc0_stg1_0 : Memref sig .tc _ _ _).view.readAt (Elt F) (Rect.unit (s := S128x128) ![0, 0] S128x128.size
        inb_S128x128_S128x128_0_0).toLoadRect = id := funext (Memref.readAt_unit_zero (Elt F) cc0_stg1_0 hz _)
    have hr2 : (Memref.whole cc0_stg2_0 : Memref sig .tc _ _ _).view.readAt (Elt F) (Rect.unit (s := S1x128) ![0, 0] S1x128.size
        inb_S1x128_S1x128_0_0).toLoadRect = id := funext (Memref.readAt_unit_zero (Elt F) cc0_stg2_0 hz _)
    have hr3 : (Memref.whole cc0_stg3_1 : Memref sig .tc _ _ _).view.readAt (Elt F) (Rect.unit (s := S640x10000) ![0, 0] S640x10000.size
        inb_S640x10000_S640x10000_0_0).toLoadRect = id := funext (Memref.readAt_unit_zero (Elt F) cc0_stg3_1 hz _)
    have hw4 : ∀ f w, (((Memref.whole cc0_stg4_0).access (Rect.unit (s := S640x128) ![0, 0] S640x128.size inb_S640x128_S640x128_0_0)) :
        View sig .tc _ _ _).write (Elt F) f w Finset.univ = w := Memref.write_access_unit_zero_univ (Elt F) cc0_stg4_0 hz _
    simp only [owns_whole_eq, cc0__fused_kernel_eq_skeleton]; unfold cc0__fused_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k0_pay1 f3 f0 f1 f2; isplitr; · ipureintro; rw [hf0, hf1, hf2, hf3]
      iexact H4
  · -- the adjacency block's buffer 1, the output block's buffer 1
    have hr0 : (Memref.whole cc0_stg0_0 : Memref sig .tc _ _ _).view.readAt (Elt F) (Rect.unit (s := S10000x128) ![0, 0] S10000x128.size
        inb_S10000x128_S10000x128_0_0).toLoadRect = id := funext (Memref.readAt_unit_zero (Elt F) cc0_stg0_0 hz _)
    have hr1 : (Memref.whole cc0_stg1_0 : Memref sig .tc _ _ _).view.readAt (Elt F) (Rect.unit (s := S128x128) ![0, 0] S128x128.size
        inb_S128x128_S128x128_0_0).toLoadRect = id := funext (Memref.readAt_unit_zero (Elt F) cc0_stg1_0 hz _)
    have hr2 : (Memref.whole cc0_stg2_0 : Memref sig .tc _ _ _).view.readAt (Elt F) (Rect.unit (s := S1x128) ![0, 0] S1x128.size
        inb_S1x128_S1x128_0_0).toLoadRect = id := funext (Memref.readAt_unit_zero (Elt F) cc0_stg2_0 hz _)
    have hr3 : (Memref.whole cc0_stg3_1 : Memref sig .tc _ _ _).view.readAt (Elt F) (Rect.unit (s := S640x10000) ![0, 0] S640x10000.size
        inb_S640x10000_S640x10000_0_0).toLoadRect = id := funext (Memref.readAt_unit_zero (Elt F) cc0_stg3_1 hz _)
    have hw4 : ∀ f w, (((Memref.whole cc0_stg4_1).access (Rect.unit (s := S640x128) ![0, 0] S640x128.size inb_S640x128_S640x128_0_0)) :
        View sig .tc _ _ _).write (Elt F) f w Finset.univ = w := Memref.write_access_unit_zero_univ (Elt F) cc0_stg4_1 hz _
    simp only [owns_whole_eq, cc0__fused_kernel_eq_skeleton]; unfold cc0__fused_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k0_pay1 f3 f0 f1 f2; isplitr; · ipureintro; rw [hf0, hf1, hf2, hf3]
      iexact H4

end Cert.KernelIdeal.Body

end
-- ==== Proof.RunIdeal.lean ====
/-
  The run of the graph-convolution kernel's one pipeline, from the body's triple.

  The grid has sixteen points; point `t` stages rows `640·t ‥ 640·t + 639` of the adjacency and writes back the same
  rows of the output. The array has 10000 rows, so the last block overhangs it by 240 rows: its fetch lands the 400
  rows inside the array and leaves the buffer's other rows at words nothing names, and its write-back writes only
  those 400 rows. The features, the projection and the bias row are staged once, whole, and stay.

  The proof data say what each staging buffer holds after the body at each point: the three resident inputs their
  whole arrays; the adjacency's buffer its block, filled out past the array's end with a word the proof picks and
  nothing reads; the output's buffer the block of ONE whole-array function `G`, filled out likewise. That the body
  really leaves `G`'s block on the rows inside the array is the hypothesis `hpay`: whatever fills the adjacency
  buffer's overhanging rows, the rows of the body's result inside the array are `G`'s. Given it, the library's
  frame run applies: every weakly fair execution terminates, the output array ends at what the write-backs of these
  blocks leave, and every other array at what it held.
-/
import proofs.«160348_g65781719105877_cont_9to1c4b_269_17_alg».proof.Proof.BodyIdeal
import proofs.«160348_g65781719105877_cont_9to1c4b_269_17_alg».proof.Proof.Gen.KernelIdeal.Frame
import Idealize.ShloMosaic.Lib.Pipeline.Frame
import Idealize.ShloMosaic.Lib.Pipeline.FrameBody

set_option maxRecDepth 16384

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (G : (c : Dev nD) → Buf (Elt F) ((c : Thread nD τ).loc main_v1))

/-- The adjacency's block at point `t`, as the fetch reads it: its rows inside the array. -/
abbrev ablk (c : Dev nD) (t : Fin cfg0.N) : (win0_3.xblock (grid0.coords t)).Idx → Elt F .f32 := iblk m c 3 t

/-- `G`'s block at point `t`: its rows inside the array. -/
abbrev gblk (c : Dev nD) (t : Fin cfg0.N) : (win0_4.xblock (grid0.coords t)).Idx → Elt F .f32 :=
  (win0_4.blk t).view.read (Elt F) (G c)

/-- The proof data of the one pipeline on device `c`: the arrays as the region finds them; after the body the three
    resident inputs' buffers at their arrays, the adjacency's at its block and the output's at `G`'s block, the last
    two filled out past the array's end with the zero word; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => win0_3.fill (grid0.coords t) (fun _ => Scalar.ofBits .f32 0#32) (ablk m c t)
    | ⟨4, _⟩ => win0_4.fill (grid0.coords t) (fun _ => Scalar.ofBits .f32 0#32) (gblk G c t)
  Φ _ := Pipeline.ΦA spec0 c
  q _ := fullShare
  owed _ := 0

/-- What the body finds: the three resident inputs' buffers at their arrays, fetched at this point or not; -/
theorem before_0 (c : Dev nD) (t : Fin cfg0.N) (d) : (dats m G 0 c).before (0 : Fin 5) t d = iblk m c 0 t :=
  before0_0_of m (dats m G 0 c) rfl (fun _ => rfl) t d
theorem before_1 (c : Dev nD) (t : Fin cfg0.N) (d) : (dats m G 0 c).before (1 : Fin 5) t d = iblk m c 1 t :=
  before0_1_of m (dats m G 0 c) rfl (fun _ => rfl) t d
theorem before_2 (c : Dev nD) (t : Fin cfg0.N) (d) : (dats m G 0 c).before (2 : Fin 5) t d = iblk m c 2 t :=
  before0_2_of m (dats m G 0 c) rfl (fun _ => rfl) t d
/-- the adjacency's buffer just fetched — the block on the rows inside the array, `d` elsewhere —; -/
theorem before_3 (c : Dev nD) (t : Fin cfg0.N) (d) :
    (dats m G 0 c).before (3 : Fin 5) t d = win0_3.fill (grid0.coords t) d (ablk m c t) := by
  unfold Dat.before; rw [if_pos (fetch0_3 t)]; rfl
/-- the output's buffer at contents nothing names: every point writes it back, so every point finds it fresh. -/
theorem before_4 (c : Dev nD) (t : Fin cfg0.N) (d) : (dats m G 0 c).before (4 : Fin 5) t d = d :=
  (dats m G 0 c).before_out_reset (4 : Fin 5) rfl t
    (by by_cases h0 : t.val = 0
        · exact .inl h0
        · exact .inr ⟨h0, flush0_4 _⟩) d

/-- The library's body obligation, from the triple at the point's staging buffers, given that the rows inside the
    array of what the body stores are `G`'s block (`hpay`): the resident inputs leave as they came; the adjacency's
    buffer leaves holding its block filled out with what it came with; the output's buffer leaves holding the stored
    result, which on the rows inside the array is `G`'s block — all the two clipped windows' obligations ask. -/
theorem body_obligation
    (hpay : ∀ (c : Dev nD) (t : Fin cfg0.N) (d : S640x10000.Idx → Elt F .f32),
      win0_4.cut (grid0.coords t) (k0_pay1 (win0_3.fill (grid0.coords t) d (ablk m c t)) (iblk m c 0 t) (iblk m c 1 t) (iblk m c 2 t))
        = gblk G c t)
    (c : Dev nD) : BodyObligationLoose (dats m G 0 c) (defs₀ (F := F)) 𝒱₀ () Set.univ := fun t => by
  rw [bigSep_W0, bigSep_W0]
  simp only
  rw [show (dats m G 0 c).Φ t.succ = (dats m G 0 c).Φ t.castSucc from rfl,
    show (dats m G 0 c).owesAt () t.succ = (dats m G 0 c).owesAt () t.castSucc from rfl]
  iintro ⟨HΦ, Ho, ⟨%d0, H0⟩, ⟨%d1, H1⟩, ⟨%d2, H2⟩, ⟨%d3, H3⟩, ⟨%d4, H4⟩⟩
  rw [before_0 m G c t d0, before_1 m G c t d1, before_2 m G c t d2, before_3 m G c t d3, before_4 m G c t d4]
  iapply (sound_body (F := F) c Set.univ (grid0.coords t) (cfg0.slots t 0) (cfg0.slots t 1) (cfg0.slots t 2) (cfg0.slots t 3)
    (cfg0.slots t 4) (iblk m c 0 t) (iblk m c 1 t) (iblk m c 2 t) (win0_3.fill (grid0.coords t) d3 (ablk m c t)) d4 _)
  isplitl [H0 H1 H2 H3 H4]
  · isplitl [H0]
    · iexact H0
    isplitl [H1]
    · iexact H1
    isplitl [H2]
    · iexact H2
    isplitl [H3]
    · iexact H3
    · iexact H4
  iintro ⟨H0, H1, H2, H3, H4⟩
  isplitl [HΦ]; · iexact HΦ
  isplitl [Ho]; · iexact Ho
  isplitl [H0]
  · iexact H0
  isplitl [H1]
  · iexact H1
  isplitl [H2]
  · iexact H2
  isplitl [H3]
  · iexists d3
    change _ ⊢ owns (c : Thread nD τ) (stage0_3 (cfg0.slots t 3)) fullShare (win0_3.fill (grid0.coords t) d3
      (win0_3.cut (grid0.coords t) (win0_3.fill (grid0.coords t) (fun _ => Scalar.ofBits .f32 0#32) (ablk m c t))))
    rw [win0_3.cut_fill]; try iexact H3
  · iexists k0_pay1 (win0_3.fill (grid0.coords t) d3 (ablk m c t)) (iblk m c 0 t) (iblk m c 1 t) (iblk m c 2 t)
    change _ ⊢ owns (c : Thread nD τ) (stage0_4 (cfg0.slots t 4)) fullShare (win0_4.fill (grid0.coords t)
      (k0_pay1 (win0_3.fill (grid0.coords t) d3 (ablk m c t)) (iblk m c 0 t) (iblk m c 1 t) (iblk m c 2 t))
      (win0_4.cut (grid0.coords t) (win0_4.fill (grid0.coords t) (fun _ => Scalar.ofBits .f32 0#32) (gblk G c t))))
    rw [win0_4.cut_fill, ← hpay c t d3, win0_4.fill_cut]; try iexact H4

-- the launch theorem's implicit arguments are found by unifying its conclusion with this one
set_option backward.isDefEq.respectTransparency.types false in
/-- At the compiled mesh, for any float values, from any memory with zero counters: every weakly fair execution of
    @main terminates, the output array ends at what the sixteen write-backs of `G`'s blocks leave, and every other
    array at what the region found. -/
theorem run_main
    (hpay : ∀ (c : Dev nD) (t : Fin cfg0.N) (d : S640x10000.Idx → Elt F .f32),
      win0_4.cut (grid0.coords t) (k0_pay1 (win0_3.fill (grid0.coords t) d (ablk m c t)) (iblk m c 0 t) (iblk m c 1 t) (iblk m c 2 t))
        = gblk G c t) :
    θ_run defs (onTc (τ := τ) (main (F := F))) (s₀ m ρ) (Pipeline.FramePost cfgs (dats m G) 0 (V m)) :=
  Pipeline.θ_run_frame cfgs (dats m G) 0 launch0 defs₀ 𝒱₀ m ρ main
    (hbody := body_obligation m G hpay)
    (hshare := fun c => (dats m G 0 c).share_full fun _ => rfl) (howed := fun _ _ => rfl)
    (V := V m) (hmain := hmain m 𝒱₀) (hA := fun _ _ => rfl) (hΦ := fun _ _ => rfl)

end Cert.KernelIdeal.Body

end
-- ==== Proof.PayIdeal.lean ====
/-
  The body's arithmetic at one entry of the block, at the ideal values.

  The body multiplies its 640 × 10000 block of adjacency rows by the 10000 × 128 features, the 640 × 128 result by the
  128 × 128 projection, adds the bias row to every row and applies the logistic function. At the ideal values a matrix
  product into a zero accumulator is the plain sum of products over the contracted axis, so entry `(p, q)` of the
  result is

      logistic ( ∑ k, ( ∑ j, block p j · X j k ) · W k q  +  bias q ).

  It mentions row `p` of the block and no other: what the block's other rows hold does not matter to it.
-/
import proofs.«160348_g65781719105877_cont_9to1c4b_269_17_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen
open Idealize.ShloMosaic Idealize.ShloMosaic.ValueIdx
open scoped BigOperators

/-- The block of adjacency rows against the features, into a zero accumulator: entry `(p, q)` is row `p` of the block against column `q` of the features. -/
theorem aggregate_at (l : FVec Ideal S640x10000 .f32) (r : FVec Ideal S10000x128 .f32) (p : Fin 640) (q : Fin 128) :
    matmul dot_S640x10000_S10000x128_S640x128_1_0_0_1_n_n none l r (constant (F := Ideal) S640x128 .f32 0x00000000#32) (ix2 p q)
      = ∑ k : Fin 10000, l (ix2 p k) * r (ix2 k q) := by
  show FloatOps.matmul dot_S640x10000_S10000x128_S640x128_1_0_0_1_n_n none l r (constant (F := Ideal) S640x128 .f32 0x00000000#32) (ix2 p q) = _
  rw [Ideal.matmul_constant_zero_apply, ← Equiv.sum_comp (contrEquiv1 dot_S640x10000_S10000x128_S640x128_1_0_0_1_n_n 10000 rfl rfl).symm]
  refine Finset.sum_congr rfl fun k _ => ?_
  have hk := contrEquiv1_symm_val dot_S640x10000_S10000x128_S640x128_1_0_0_1_n_n 10000 rfl rfl k
  have el : dot_S640x10000_S10000x128_S640x128_1_0_0_1_n_n.lhsIdx (ix2 p q) ((contrEquiv1 dot_S640x10000_S10000x128_S640x128_1_0_0_1_n_n 10000 rfl rfl).symm k) = ix2 p k := funext fun a => Fin.ext (by
    match a with
    | ⟨0, _⟩ =>
      show (dot_S640x10000_S10000x128_S640x128_1_0_0_1_n_n.lhsIdx (ix2 p q) ((contrEquiv1 dot_S640x10000_S10000x128_S640x128_1_0_0_1_n_n 10000 rfl rfl).symm k) 0).val = p.val
      unfold DotDims.lhsIdx
      rw [dif_neg (show ¬(0 : Fin S640x10000.rank) ∈ dot_S640x10000_S10000x128_S640x128_1_0_0_1_n_n.lhsBatch by decide), dif_pos (show (0 : Fin S640x10000.rank) ∈ dot_S640x10000_S10000x128_S640x128_1_0_0_1_n_n.lhsNonContracting by decide)]
      rfl
    | ⟨1, _⟩ => exact (dot_S640x10000_S10000x128_S640x128_1_0_0_1_n_n.lhsIdx_val_of_single rfl (ix2 p q) _).trans hk)
  have er : dot_S640x10000_S10000x128_S640x128_1_0_0_1_n_n.rhsIdx (ix2 p q) ((contrEquiv1 dot_S640x10000_S10000x128_S640x128_1_0_0_1_n_n 10000 rfl rfl).symm k) = ix2 k q := funext fun a => Fin.ext (by
    match a with
    | ⟨0, _⟩ => exact (dot_S640x10000_S10000x128_S640x128_1_0_0_1_n_n.rhsIdx_val_of_single rfl (ix2 p q) _).trans hk
    | ⟨1, _⟩ =>
      show (dot_S640x10000_S10000x128_S640x128_1_0_0_1_n_n.rhsIdx (ix2 p q) ((contrEquiv1 dot_S640x10000_S10000x128_S640x128_1_0_0_1_n_n 10000 rfl rfl).symm k) 1).val = q.val
      unfold DotDims.rhsIdx
      rw [dif_neg (show ¬(1 : Fin S10000x128.rank) ∈ dot_S640x10000_S10000x128_S640x128_1_0_0_1_n_n.rhsBatch by decide), dif_pos (show (1 : Fin S10000x128.rank) ∈ dot_S640x10000_S10000x128_S640x128_1_0_0_1_n_n.rhsNonContracting by decide)]
      rfl)
  rw [el, er]

/-- A 640 × 128 matrix against the projection, into a zero accumulator: entry `(p, q)` is its row `p` against column `q` of the projection. -/
theorem project_at (l : FVec Ideal S640x128 .f32) (r : FVec Ideal S128x128 .f32) (p : Fin 640) (q : Fin 128) :
    matmul dot_S640x128_S128x128_S640x128_1_0_0_1_n_n none l r (constant (F := Ideal) S640x128 .f32 0x00000000#32) (ix2 p q)
      = ∑ k : Fin 128, l (ix2 p k) * r (ix2 k q) := by
  show FloatOps.matmul dot_S640x128_S128x128_S640x128_1_0_0_1_n_n none l r (constant (F := Ideal) S640x128 .f32 0x00000000#32) (ix2 p q) = _
  rw [Ideal.matmul_constant_zero_apply, ← Equiv.sum_comp (contrEquiv1 dot_S640x128_S128x128_S640x128_1_0_0_1_n_n 128 rfl rfl).symm]
  refine Finset.sum_congr rfl fun k _ => ?_
  have hk := contrEquiv1_symm_val dot_S640x128_S128x128_S640x128_1_0_0_1_n_n 128 rfl rfl k
  have el : dot_S640x128_S128x128_S640x128_1_0_0_1_n_n.lhsIdx (ix2 p q) ((contrEquiv1 dot_S640x128_S128x128_S640x128_1_0_0_1_n_n 128 rfl rfl).symm k) = ix2 p k := funext fun a => Fin.ext (by
    match a with
    | ⟨0, _⟩ =>
      show (dot_S640x128_S128x128_S640x128_1_0_0_1_n_n.lhsIdx (ix2 p q) ((contrEquiv1 dot_S640x128_S128x128_S640x128_1_0_0_1_n_n 128 rfl rfl).symm k) 0).val = p.val
      unfold DotDims.lhsIdx
      rw [dif_neg (show ¬(0 : Fin S640x128.rank) ∈ dot_S640x128_S128x128_S640x128_1_0_0_1_n_n.lhsBatch by decide), dif_pos (show (0 : Fin S640x128.rank) ∈ dot_S640x128_S128x128_S640x128_1_0_0_1_n_n.lhsNonContracting by decide)]
      rfl
    | ⟨1, _⟩ => exact (dot_S640x128_S128x128_S640x128_1_0_0_1_n_n.lhsIdx_val_of_single rfl (ix2 p q) _).trans hk)
  have er : dot_S640x128_S128x128_S640x128_1_0_0_1_n_n.rhsIdx (ix2 p q) ((contrEquiv1 dot_S640x128_S128x128_S640x128_1_0_0_1_n_n 128 rfl rfl).symm k) = ix2 k q := funext fun a => Fin.ext (by
    match a with
    | ⟨0, _⟩ => exact (dot_S640x128_S128x128_S640x128_1_0_0_1_n_n.rhsIdx_val_of_single rfl (ix2 p q) _).trans hk
    | ⟨1, _⟩ =>
      show (dot_S640x128_S128x128_S640x128_1_0_0_1_n_n.rhsIdx (ix2 p q) ((contrEquiv1 dot_S640x128_S128x128_S640x128_1_0_0_1_n_n 128 rfl rfl).symm k) 1).val = q.val
      unfold DotDims.rhsIdx
      rw [dif_neg (show ¬(1 : Fin S128x128.rank) ∈ dot_S640x128_S128x128_S640x128_1_0_0_1_n_n.rhsBatch by decide), dif_pos (show (1 : Fin S128x128.rank) ∈ dot_S640x128_S128x128_S640x128_1_0_0_1_n_n.rhsNonContracting by decide)]
      rfl)
  rw [el, er]

/-- The body's result at entry `(p, q)` of the block: the logistic function of row `p` of the block against the
    features, that against column `q` of the projection, plus the bias row's entry `q`. -/
theorem pay_at (v0 : FVec Ideal S640x10000 .f32) (v1 : FVec Ideal S10000x128 .f32) (v3 : FVec Ideal S128x128 .f32)
    (v5 : FVec Ideal S1x128 .f32) (p : Fin 640) (q : Fin 128) :
    k0_pay1 (F := Ideal) v0 v1 v3 v5 (ix2 p q)
      = Ideal.logistic ((∑ k : Fin 128, (∑ j : Fin 10000, v0 (ix2 p j) * v1 (ix2 j k)) * v3 (ix2 k q)) + v5 (ix2 (0 : Fin 1) q)) := by
  unfold k0_pay1
  show Ideal.logistic
      (matmul dot_S640x128_S128x128_S640x128_1_0_0_1_n_n none
          (matmul dot_S640x10000_S10000x128_S640x128_1_0_0_1_n_n none v0 v1 (constant (F := Ideal) S640x128 .f32 0x00000000#32))
          v3 (constant (F := Ideal) S640x128 .f32 0x00000000#32) (ix2 p q)
        + broadcastTo S640x128 (shapeCast S1x128 v5 shapeCasts_S1x128_S1x128) broadcasts_S1x128_S640x128 (ix2 p q)) = _
  rw [project_at, broadcastTo_1b_ab_apply, shapeCast_self]
  refine congrArg Ideal.logistic (congrArg (· + v5 (ix2 (0 : Fin 1) q)) (Finset.sum_congr rfl fun k _ => ?_))
  rw [aggregate_at]

end Cert.KernelIdeal.Pay

end
-- ==== Proof.Spec.lean ====
/-
  The two arrangements of one graph-convolution layer, as whole-array functions over the extended reals.

  For a dense normalized adjacency `An` (10000 × 10000), node features `X` (10000 × 128), a projection `W`
  (128 × 128) and a bias `b` (128), the layer's pre-activation at row `r` and unit `q` is

      z r q = ∑ j, An r j · (X · W) j q + b q        (project first, then aggregate)
            = ∑ k, (An · X) r k · W k q + b q        (aggregate first, then project)

  and its output is the logistic function of `z`. The two are equal whenever every entry is a real number
  (the double sum may then be exchanged and a factor moved across it); on the extended reals, with infinite
  entries, they need not be. This module only states both; it mentions no program.
-/
import Idealize.ShloMosaic.PureOps.Ideal
import Idealize.ShloMosaic.Lib.ValueIdx

noncomputable section

namespace Cert.Gcn

open Idealize.ShloMosaic Idealize.ShloMosaic.ValueIdx
open scoped BigOperators

/-- The adjacency's shape, -/
abbrev SNN : Shape := ⟨2, ![10000, 10000]⟩
/-- the features' and the output's, -/
abbrev SNF : Shape := ⟨2, ![10000, 128]⟩
/-- the projection's, -/
abbrev SFU : Shape := ⟨2, ![128, 128]⟩
/-- the bias's. -/
abbrev SU : Shape := ⟨1, ![128]⟩

variable (An : SNN.Idx → EReal) (X : SNF.Idx → EReal) (W : SFU.Idx → EReal) (b : SU.Idx → EReal)

/-- Row `r` of the aggregated features `An · X`, at feature `k`. -/
def agg (r : Fin 10000) (k : Fin 128) : EReal := ∑ j : Fin 10000, An (ix2 r j) * X (ix2 j k)

/-- Row `j` of the projected features `X · W`, at unit `q`. -/
def proj (j : Fin 10000) (q : Fin 128) : EReal := ∑ k : Fin 128, X (ix2 j k) * W (ix2 k q)

/-- The pre-activation, aggregating first: `(An · X) · W + b`. -/
def zAggFirst (r : Fin 10000) (q : Fin 128) : EReal := (∑ k : Fin 128, agg An X r k * W (ix2 k q)) + b (ix1 q)

/-- The pre-activation, projecting first: `An · (X · W) + b`. -/
def zProjFirst (r : Fin 10000) (q : Fin 128) : EReal := (∑ j : Fin 10000, An (ix2 r j) * proj X W j q) + b (ix1 q)

/-- The layer's output, aggregating first. -/
def outAggFirst : SNF.Idx → EReal := fun i => Ideal.logistic (zAggFirst An X W b (i 0) (i 1))

/-- The layer's output, projecting first. -/
def outProjFirst : SNF.Idx → EReal := fun i => Ideal.logistic (zProjFirst An X W b (i 0) (i 1))

end Cert.Gcn

end
-- ==== Proof.ValueIdeal.lean ====
/-
  The graph-convolution kernel's output array, at the ideal values, as one function of its argument arrays.

  Point `t` of the sixteen writes back rows `640·t ‥` of the output: 640 rows, or at the last point the 400 that are
  inside the 10000-row array. Row `640·t + p` of that block is the body's result at row `p`, which mentions row `p` of
  the staged adjacency block and nothing of its other rows; and row `p` of the staged block, for `p` inside the array,
  is row `640·t + p` of the adjacency — whatever the fetch left in the buffer's rows past the array's end. So every
  row the write-backs move is the layer's output at that row, aggregating first:

      out r q = logistic ( ∑ k, ( ∑ j, An r j · X j k ) · W k q + bias q ),

  the bias read through the host's reshape of it to one row. The sixteen blocks' rows inside the array are
  `0‥639, 640‥1279, …, 9600‥9999`: together all of them. So the output array ends holding that function whole.
-/
import proofs.«160348_g65781719105877_cont_9to1c4b_269_17_alg».proof.Proof.RunIdeal
import proofs.«160348_g65781719105877_cont_9to1c4b_269_17_alg».proof.Proof.PayIdeal
import proofs.«160348_g65781719105877_cont_9to1c4b_269_17_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Body

open Idealize.ShloMosaic Idealize.ShloMosaic.ValueIdx
open Idealize.ShloMosaic.TcCoe
open Idealize.SL Idealize.SL.Sem
open Idealize.ShloMosaic.StableHlo
open Idealize.ShloMosaic.Pipeline (Dat Cfg Window)
open scoped BigOperators

variable (m : (ℓ : Loc nD τ sig) → Buf (Elt Ideal) ℓ) (ρ : Dev nD → PrngReg)

/-! ## The schedule's arithmetic, decided once over the grid -/

/-- The printed index maps: the three resident inputs always at block zero, the adjacency's and the output's block
    row the point's number, their block column zero. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The rows and columns the transfers at point `t` move: the adjacency's and the output's blocks are cut alike on
    the rows — 640 of them, 400 at the last point — and not at all on the columns. -/
theorem size_facts : ∀ t : Fin cfg0.N,
    win0_3.xsize (grid0.coords t) (0 : Fin 2) = win0_4.xsize (grid0.coords t) (0 : Fin 2)
    ∧ win0_3.xsize (grid0.coords t) (1 : Fin 2) = 10000
    ∧ win0_4.xsize (grid0.coords t) (1 : Fin 2) = 128
    ∧ (t.val < 15 → win0_4.xsize (grid0.coords t) (0 : Fin 2) = 640)
    ∧ (t.val = 15 → win0_4.xsize (grid0.coords t) (0 : Fin 2) = 400) :=
  (by decide +kernel : ∀ t : Fin grid0.N, _)

/-! ## The staged blocks, read at an entry -/

/-- The features' staged block is the whole array, -/
theorem features_at (c : Dev nD) (t : Fin cfg0.N) (j : Fin 10000) (k : Fin 128) :
    iblk m c 0 t (ix2 j k) = m ((c : Thread nD τ).loc main_arg1) (ix2 j k) := by
  obtain ⟨e0, e1, -⟩ := index_facts t
  show V m c main_arg1 ((win0_0.blk t).view.emb (ix2 j k)) = _
  rw [V_main_arg1]
  exact congrArg (m ((c : Thread nD τ).loc main_arg1)) (funext fun a => Fin.ext (by
    match a with
    | ⟨0, _⟩ => show win0_0.index t (0 : Fin 2) * 10000 + 1 * j.val = j.val; rw [e0]; omega
    | ⟨1, _⟩ => show win0_0.index t (1 : Fin 2) * 128 + 1 * k.val = k.val; rw [e1]; omega))

/-- the projection's likewise, -/
theorem projection_at (c : Dev nD) (t : Fin cfg0.N) (k : Fin 128) (q : Fin 128) :
    iblk m c 1 t (ix2 k q) = m ((c : Thread nD τ).loc main_arg2) (ix2 k q) := by
  obtain ⟨-, -, e0, e1, -⟩ := index_facts t
  show V m c main_arg2 ((win0_1.blk t).view.emb (ix2 k q)) = _
  rw [V_main_arg2]
  exact congrArg (m ((c : Thread nD τ).loc main_arg2)) (funext fun a => Fin.ext (by
    match a with
    | ⟨0, _⟩ => show win0_1.index t (0 : Fin 2) * 128 + 1 * k.val = k.val; rw [e0]; omega
    | ⟨1, _⟩ => show win0_1.index t (1 : Fin 2) * 128 + 1 * q.val = q.val; rw [e1]; omega))

/-- The bias row the region finds is the host's reshape of the bias to one row: -/
theorem bias_row (c : Dev nD) :
    (V m c main_v0 : S1x128.Idx → EReal) = shapeCast S1x128 (m ((c : Thread nD τ).loc main_arg3)) shapeCasts_S128_S1x128 := by
  dsimp only [V, hostOps0]; after_results; rfl

/-- so its staged block, at entry `q` of its one row, is the bias at `q`. -/
theorem bias_at (c : Dev nD) (t : Fin cfg0.N) (q : Fin 128) :
    iblk m c 2 t (ix2 (0 : Fin 1) q) = m ((c : Thread nD τ).loc main_arg3) (ix1 q) := by
  obtain ⟨-, -, -, -, e0, e1, -⟩ := index_facts t
  show (V m c main_v0 : S1x128.Idx → EReal) ((win0_2.blk t).view.emb (ix2 (0 : Fin 1) q)) = _
  rw [bias_row, show (win0_2.blk t).view.emb (ix2 (0 : Fin 1) q) = ix2 (0 : Fin 1) q from funext fun a => Fin.ext (by
    match a with
    | ⟨0, _⟩ => show win0_2.index t (0 : Fin 2) * 1 + 1 * (0 : Fin 1).val = (0 : Fin 1).val; rw [e0]; rfl
    | ⟨1, _⟩ => show win0_2.index t (1 : Fin 2) * 128 + 1 * q.val = q.val; rw [e1]; omega)]
  exact shapeCast_a_1a_apply _ _ _ _

/-- The adjacency's staged buffer just fetched, at a row `p` inside the array: row `640·t + p` of the adjacency,
    whatever the buffer held before (`d`). -/
theorem adjacency_at (c : Dev nD) (t : Fin cfg0.N) (d : S640x10000.Idx → Elt Ideal .f32) (p : Fin 640) (j : Fin 10000)
    (hp : p.val < win0_3.xsize (grid0.coords t) (0 : Fin 2)) (hr : t.val * 640 + p.val < 10000) :
    win0_3.fill (grid0.coords t) d (ablk m c t) (ix2 p j)
      = m ((c : Thread nD τ).loc main_arg0) (ix2 (⟨t.val * 640 + p.val, hr⟩ : Fin 10000) j) := by
  obtain ⟨-, -, -, -, -, -, e0, e1, -⟩ := index_facts t
  obtain ⟨-, x1, -⟩ := size_facts t
  have hmv : win0_3.moved (grid0.coords t) (ix2 p j) = true := (win0_3.moved_iff _ _).mpr fun a => by
    match a with
    | ⟨0, _⟩ => exact hp
    | ⟨1, _⟩ => show j.val < win0_3.xsize (grid0.coords t) (1 : Fin 2); rw [x1]; exact j.isLt
  unfold Window.fill
  rw [dif_pos hmv]
  show V m c main_arg0 ((win0_3.blk t).view.emb _) = _
  rw [V_main_arg0]
  exact congrArg (m ((c : Thread nD τ).loc main_arg0)) (funext fun a => Fin.ext (by
    match a with
    | ⟨0, _⟩ => show win0_3.index t (0 : Fin 2) * 640 + 1 * p.val = t.val * 640 + p.val; rw [e0]; omega
    | ⟨1, _⟩ => show win0_3.index t (1 : Fin 2) * 10000 + 1 * j.val = j.val; rw [e1]; omega))

/-! ## The argument arrays as launched, as families of extended reals -/

/-- The adjacency, -/
abbrev An (c : Dev nD) : S10000x10000.Idx → EReal := m ((c : Thread nD τ).loc main_arg0)
/-- the features, -/
abbrev X (c : Dev nD) : S10000x128.Idx → EReal := m ((c : Thread nD τ).loc main_arg1)
/-- the projection, -/
abbrev W (c : Dev nD) : S128x128.Idx → EReal := m ((c : Thread nD τ).loc main_arg2)
/-- the bias. -/
abbrev bias (c : Dev nD) : S128.Idx → EReal := m ((c : Thread nD τ).loc main_arg3)

/-! ## What the body stores, on the rows inside the array -/

/-- The layer's output, aggregating first, of the four argument arrays as launched. -/
def outArr (c : Dev nD) : Buf (Elt Ideal) ((c : Thread nD τ).loc main_v1) :=
  Cert.Gcn.outAggFirst (m ((c : Thread nD τ).loc main_arg0)) (m ((c : Thread nD τ).loc main_arg1)) (m ((c : Thread nD τ).loc main_arg2)) (m ((c : Thread nD τ).loc main_arg3))

/-- It at row `r` and unit `q`, written out. -/
theorem outArr_at (c : Dev nD) (r : Fin 10000) (q : Fin 128) :
    outArr m c (ix2 r q)
      = Ideal.logistic ((∑ k : Fin 128, (∑ j : Fin 10000, An m c (ix2 r j) * X m c (ix2 j k)) * W m c (ix2 k q))
          + bias m c (ix1 q)) := by
  unfold outArr Cert.Gcn.outAggFirst Cert.Gcn.zAggFirst Cert.Gcn.agg
  rfl

/-- THE ROWS THE WRITE-BACK MOVES: whatever the adjacency's buffer held past the array's end (`d`), the rows inside the
    array of what the body stores at point `t` are the layer's output at rows `640·t ‥`. -/
theorem stored_rows (c : Dev nD) (t : Fin cfg0.N) (d : S640x10000.Idx → Elt Ideal .f32) :
    win0_4.cut (grid0.coords t) (k0_pay1 (win0_3.fill (grid0.coords t) d (ablk m c t)) (iblk m c 0 t) (iblk m c 1 t) (iblk m c 2 t))
      = gblk (outArr m) c t := by
  obtain ⟨-, -, -, -, -, -, -, -, e0, e1⟩ := index_facts t
  obtain ⟨x30, -, x41, xlt, xeq⟩ := size_facts t
  funext j
  have hj0 : (j 0).val < win0_4.xsize (grid0.coords t) (0 : Fin 2) := (j 0).isLt
  have hj1 : (j 1).val < win0_4.xsize (grid0.coords t) (1 : Fin 2) := (j 1).isLt
  rw [x41] at hj1
  have hrows : win0_4.xsize (grid0.coords t) (0 : Fin 2) ≤ 640 ∧ t.val * 640 + win0_4.xsize (grid0.coords t) (0 : Fin 2) ≤ 10000 := by
    have ht : t.val < 16 := Nat.lt_of_lt_of_eq t.isLt N_0
    rcases Nat.lt_or_ge t.val 15 with h | h
    · rw [xlt h]; omega
    · rw [xeq (by omega)]; omega
  have hp640 : (j 0).val < 640 := by omega
  have hr : t.val * 640 + (j 0).val < 10000 := by omega
  have hx : win0_4.xinj (grid0.coords t) j = ix2 (⟨(j 0).val, hp640⟩ : Fin 640) (⟨(j 1).val, hj1⟩ : Fin 128) :=
    funext fun a => Fin.ext (by match a with | ⟨0, _⟩ => rfl | ⟨1, _⟩ => rfl)
  have hemb : (win0_4.blk t).view.emb j = ix2 (⟨t.val * 640 + (j 0).val, hr⟩ : Fin 10000) (⟨(j 1).val, hj1⟩ : Fin 128) :=
    funext fun a => Fin.ext (by
      match a with
      | ⟨0, _⟩ => show win0_4.index t (0 : Fin 2) * 640 + 1 * (j 0).val = t.val * 640 + (j 0).val; rw [e0]; omega
      | ⟨1, _⟩ => show win0_4.index t (1 : Fin 2) * 128 + 1 * (j 1).val = (j 1).val; rw [e1]; omega)
  have hp3 : (⟨(j 0).val, hp640⟩ : Fin 640).val < win0_3.xsize (grid0.coords t) (0 : Fin 2) := by rw [x30]; exact hj0
  show k0_pay1 (F := Ideal) _ _ _ _ (win0_4.xinj (grid0.coords t) j) = outArr m c ((win0_4.blk t).view.emb j)
  rw [hx, hemb, outArr_at]
  refine (Pay.pay_at _ _ _ _ _ _).trans (congrArg Ideal.logistic ?_)
  rw [bias_at]
  refine congrArg (· + bias m c (ix1 (⟨(j 1).val, hj1⟩ : Fin 128))) (Finset.sum_congr rfl fun k _ => ?_)
  rw [projection_at]
  refine congrArg (· * W m c (ix2 k (⟨(j 1).val, hj1⟩ : Fin 128))) (Finset.sum_congr rfl fun jj _ => ?_)
  rw [adjacency_at m c t d _ jj hp3 hr, features_at]

/-! ## From the blocks to the array -/

/-- What point `t` writes back is block `t` of the layer's output. -/
theorem flushed_eq (c : Dev nD) (t : Fin cfg0.N) :
    (dats m (outArr m) 0 c).flushed 4 t = ((cfg0.win 4).blk t).view.read (Elt Ideal) (outArr m c) := by
  show win0_4.cut (grid0.coords t) ((dats m (outArr m) 0 c).after 4 t) = _
  dsimp only [dats]
  exact win0_4.cut_fill _ _ _

/-- An index of the output array is in point `t`'s block iff its row is among the block's rows inside the array
    (every column is: the blocks span the columns). -/
theorem mem_rows (t : Fin cfg0.N) (i : S10000x128.Idx) :
    i ∈ ((cfg0.win 4).blk t).view.set
      ↔ t.val * 640 ≤ (i 0).val ∧ (i 0).val < t.val * 640 + win0_4.xsize (grid0.coords t) (0 : Fin 2) := by
  obtain ⟨-, -, -, -, -, -, -, -, e0, e1⟩ := index_facts t
  obtain ⟨-, -, x41, -, -⟩ := size_facts t
  show i ∈ ((View.whole main_v1).slice (win0_4.rect t)).set ↔ _
  rw [View.set_slice_whole, Rect.mem_set_unit]
  have h1 : (i 1).val < 128 := (i 1).isLt
  constructor
  · intro h
    have h0 : win0_4.index t (0 : Fin 2) * 640 ≤ (i 0).val ∧ (i 0).val < win0_4.index t (0 : Fin 2) * 640 + win0_4.xsize (grid0.coords t) (0 : Fin 2) := h 0
    rw [e0] at h0; exact h0
  · intro h a
    match a with
    | ⟨0, _⟩ =>
      show win0_4.index t (0 : Fin 2) * 640 ≤ (i 0).val ∧ (i 0).val < win0_4.index t (0 : Fin 2) * 640 + win0_4.xsize (grid0.coords t) (0 : Fin 2)
      rw [e0]; exact h
    | ⟨1, _⟩ =>
      show win0_4.index t (1 : Fin 2) * 128 ≤ (i 1).val ∧ (i 1).val < win0_4.index t (1 : Fin 2) * 128 + win0_4.xsize (grid0.coords t) (1 : Fin 2)
      rw [e1, x41]; omega

/-- Every row of the output is in some point's block: row `r` in point `r / 640`'s. -/
theorem rows_covered (i : S10000x128.Idx) :
    ∃ t : Fin cfg0.N, (cfg0.win 4).flush t = true ∧ i ∈ ((cfg0.win 4).blk t).view.set := by
  have hi : (i 0).val < 10000 := (i 0).isLt
  have hN : cfg0.N = 16 := N_0
  have htl : (i 0).val / 640 < cfg0.N := by rw [hN]; omega
  obtain ⟨-, -, -, xlt, xeq⟩ := size_facts ⟨(i 0).val / 640, htl⟩
  refine ⟨⟨(i 0).val / 640, htl⟩, flush0_4 _, (mem_rows ⟨(i 0).val / 640, htl⟩ i).mpr ?_⟩
  show (i 0).val / 640 * 640 ≤ (i 0).val ∧ (i 0).val < (i 0).val / 640 * 640 + win0_4.xsize (grid0.coords ⟨(i 0).val / 640, htl⟩) (0 : Fin 2)
  rcases Nat.lt_or_ge ((i 0).val / 640) 15 with h | h
  · rw [xlt h]; omega
  · rw [xeq (by show (i 0).val / 640 = 15; omega)]; omega

/-- THE OUTPUT ARRAY after the run is the layer's output, aggregating first, of the argument arrays. -/
theorem final (c : Dev nD) : (dats m (outArr m) 0 c).arrAt 4 cfg0.N = outArr m c :=
  (dats m (outArr m) 0 c).arrAt_eq_of_cover 4 (outArr m c) (fun t _ => flushed_eq m c t) rows_covered

/-! ## The run, read -/

/-- Every weakly fair execution of the idealized kernel terminates with the result array at the layer's output,
    aggregating first, of the argument arrays, and the arguments unchanged. -/
theorem run : θ_run defs (onTc (τ := τ) (main (F := Ideal))) ⟨m, fun _ => 0, ρ⟩ (fun r => ∀ c : Dev nD,
      r.2.mem ((c.tc : Thread nD τ).loc main_v1) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 4).trans (final m c),
      ((h c).1 3).trans (((dats m (outArr m) 0 c).arrAt_in 3 rfl _).trans (V_main_arg0 m c)),
      ((h c).1 0).trans (((dats m (outArr m) 0 c).arrAt_in 0 rfl _).trans (V_main_arg1 m c)),
      ((h c).1 1).trans (((dats m (outArr m) 0 c).arrAt_in 1 rfl _).trans (V_main_arg2 m c)),
      ((h c).2 main_arg3 (Pipeline.mem_restRefs_of main_arg3 (by decide) (by decide))).trans (V_main_arg3 m c)⟩)
    (run_main m ρ (outArr m) (stored_rows m))

end Cert.KernelIdeal.Val

end
-- ==== Proof.Assoc.lean ====
/-
  The two arrangements of the graph-convolution layer agree when every entry of the adjacency, the features
  and the projection is a real number.

  On the extended reals multiplication does not distribute over addition at the infinities, so the exchange
  of the double sum is carried out in the reals: every entry is written as the coercion of a real, the
  coercion is moved outside the products and the finite sums, and the identity

      ∑ k, (∑ j, a j · x j k) · w k = ∑ j, a j · (∑ k, x j k · w k)

  is then the usual one (distribute, exchange the two sums, reassociate). It is proved over abstract finite
  index types and only afterwards read at the layer's sizes.
-/
import proofs.«160348_g65781719105877_cont_9to1c4b_269_17_alg».proof.Proof.Spec
import Mathlib.Data.EReal.Operations
import Mathlib.Algebra.BigOperators.Ring.Finset

noncomputable section

namespace Cert.Gcn

open Idealize.ShloMosaic Idealize.ShloMosaic.ValueIdx
open scoped BigOperators

/-- The coercion of the reals into the extended reals commutes with finite sums. -/
theorem coe_finset_sum {J : Type} (s : Finset J) (f : J → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- Associativity of the triple product, entrywise, over the reals. -/
theorem assoc_real {J K : Type} [Fintype J] [Fintype K] (a : J → ℝ) (x : J → K → ℝ) (w : K → ℝ) :
    ∑ k, (∑ j, a j * x j k) * w k = ∑ j, a j * ∑ k, x j k * w k := by
  simp_rw [Finset.sum_mul, Finset.mul_sum]
  rw [Finset.sum_comm]
  exact Finset.sum_congr rfl fun j _ => Finset.sum_congr rfl fun k _ => mul_assoc _ _ _

/-- The same over the extended reals, for families of real entries. -/
theorem assoc_ereal {J K : Type} [Fintype J] [Fintype K] (a : J → ℝ) (x : J → K → ℝ) (w : K → ℝ) :
    ∑ k, (∑ j, (a j : EReal) * (x j k : EReal)) * (w k : EReal)
      = ∑ j, (a j : EReal) * ∑ k, (x j k : EReal) * (w k : EReal) := by
  simp only [← EReal.coe_mul, ← coe_finset_sum]
  rw [assoc_real]

/-- The pre-activations agree, at every row and unit, for families of real entries. -/
theorem z_eq (fa : SNN.Idx → ℝ) (fx : SNF.Idx → ℝ) (fw : SFU.Idx → ℝ) (b : SU.Idx → EReal)
    (r : Fin 10000) (q : Fin 128) :
    zAggFirst (fun i => (fa i : EReal)) (fun i => (fx i : EReal)) (fun i => (fw i : EReal)) b r q
      = zProjFirst (fun i => (fa i : EReal)) (fun i => (fx i : EReal)) (fun i => (fw i : EReal)) b r q := by
  unfold zAggFirst zProjFirst agg proj
  rw [assoc_ereal (fun j => fa (ix2 r j)) (fun j k => fx (ix2 j k)) (fun k => fw (ix2 k q))]

/-- The two arrangements of the layer agree on real entries (the bias is added to equal sums, so it is free). -/
theorem out_eq (An : SNN.Idx → EReal) (X : SNF.Idx → EReal) (W : SFU.Idx → EReal) (b : SU.Idx → EReal)
    (hAn : ∀ i, ∃ r : ℝ, An i = (r : EReal)) (hX : ∀ i, ∃ r : ℝ, X i = (r : EReal))
    (hW : ∀ i, ∃ r : ℝ, W i = (r : EReal)) :
    outAggFirst An X W b = outProjFirst An X W b := by
  choose fa hfa using hAn
  choose fx hfx using hX
  choose fw hfw using hW
  obtain rfl : An = fun i => (fa i : EReal) := funext hfa
  obtain rfl : X = fun i => (fx i : EReal) := funext hfx
  obtain rfl : W = fun i => (fw i : EReal) := funext hfw
  funext i
  simp only [outAggFirst, outProjFirst]
  exact congrArg Ideal.logistic (z_eq fa fx fw b (i 0) (i 1))

end Cert.Gcn

end
-- ==== Proof.Finite.lean ====
/-
  The finiteness precondition, read back: when the printed predicate holds, every entry of each of the four
  arrays is a real number.

  The predicate is the conjunction, over the four arrays, of "every entry has absolute value below +∞". Each
  conjunct is a reduction by `and` of the entrywise comparison `|x| < +∞`; a reduction by `and` that comes out
  1 met a 1 at every entry, and an extended real whose absolute value `max x (-x)` is below `⊤` is neither `⊤`
  nor `⊥`, hence the coercion of a real.
-/
import proofs.«160348_g65781719105877_cont_9to1c4b_269_17_alg».proof.Pre_finite_inputs
import Idealize.ShloMosaic.Lib.ReduceAll
import Idealize.ShloMosaic.Lib.ValueIdx
import Idealize.ShloMosaic.Lib.IdealHost
import Idealize.ShloMosaic.PureOps.Ideal

noncomputable section

namespace Cert.Gcn.Finite

open Idealize.ShloMosaic Idealize.ShloMosaic.ValueIdx
open Cert.Pre_finite_inputs (S10000x10000 S10000x128 S128x128 S128 S_)

/-- The rank-0 shape has a single index. -/
instance : Subsingleton S_.Idx := ⟨fun a b => funext fun d => d.elim0⟩

/-- The f32 pattern `0x7F800000` denotes `+∞`. -/
theorem ofBits_inf : Ideal.ofBits .f32 0x7F800000#32 = (⊤ : EReal) := by simp [Ideal.ofBits, Ideal.ieee]

/-- An extended real whose absolute value `max x (-x)` compares below `⊤` is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One conjunct of the predicate: if the `and` over all entries of `|x| < +∞` is 1, every entry of `x` is real. -/
theorem all_real {T : Shape} {axes : List (Fin T.rank)} (x : FVec Ideal T .f32)
    (hb : S_.BroadcastsInDim T (![] : Fin 0 → Fin T.rank)) (hr : T.ReducesTo axes S_) (hu : 0 < S_.numel)
    (e : Host.reduce IntOp.andi
          (cmpf .olt (Host.absf x) (broadcastInDim T ![] hb (constant (F := Ideal) S_ .f32 0x7F800000#32)))
          (constantI S_ 1 1#1) hr hu ix0 = 1#1) :
    ∀ i, ∃ r : ℝ, x i = (r : EReal) := by
  intro i
  have h1 := Host.reduce_andi_all _ _ hr hu ix0 e i
  rw [cmpf_apply, broadcastInDim_scalar_apply, constant_apply, ofBits_inf] at h1
  exact real_of_abs_lt_top (x i) h1

variable [hF : Cert.Pre_finite_inputs.Facts]

/-- The printed predicate holding says every entry of each of the four arrays is a real number. -/
theorem finite_inputs (a0 : FVec Ideal S10000x10000 .f32) (a1 : FVec Ideal S10000x128 .f32)
    (a2 : FVec Ideal S128x128 .f32) (a3 : FVec Ideal S128 .f32)
    (h : Cert.Pre_finite_inputs.fn (F := Ideal) a0 a1 a2 a3 = (fun _ => 1#1)) :
    (∀ i, ∃ r : ℝ, a0 i = (r : EReal)) ∧ (∀ i, ∃ r : ℝ, a1 i = (r : EReal)) ∧
      (∀ i, ∃ r : ℝ, a2 i = (r : EReal)) ∧ (∀ i, ∃ r : ℝ, a3 i = (r : EReal)) := by
  have h0 := congrFun h ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨all_real a0 _ _ _ h0', all_real a1 _ _ _ h1, all_real a2 _ _ _ h2, all_real a3 _ _ _ h3⟩

end Cert.Gcn.Finite

end
-- ==== Proof.RefValue.lean ====
/-
  The reference program's result, read at the extended reals, is the layer's output computed by projecting first.

  The program multiplies the features by the projection, multiplies the adjacency by that product, adds the bias
  (broadcast along the rows), and then applies the logistic function spelled out as negate, exponential, one plus,
  one over. At the extended reals each matrix product is the sum over the contracted coordinate of the products of the
  entries, the pattern of the literal is the real number one, and "one over (one plus e to the minus z)" is the
  logistic function's definition. So index by index the program's result is the specification's `outProjFirst`.
-/
import proofs.«160348_g65781719105877_cont_9to1c4b_269_17_alg».proof.Proof.Gen.ReferenceIdeal.Read
import proofs.«160348_g65781719105877_cont_9to1c4b_269_17_alg».proof.Proof.Spec
import Idealize.ShloMosaic.Lib.IdealHost

noncomputable section

namespace Cert.Gcn.Ref

open Cert.ReferenceIdeal Cert.ReferenceIdeal.Gen Cert.ReferenceIdeal.Read
open Idealize.ShloMosaic Idealize.ShloMosaic.TcCoe Idealize.SL.Sem Idealize.ShloMosaic.ValueIdx
open scoped BigOperators

/-! ## The indices the program reads at are the specification's -/

/-- The first product reads the features at row `i 0`, column `k`. -/
theorem lidx_v0_eq (i : S10000x128.Idx) (k : Fin 128) : lidx_main_v0 i k = ix2 (i 0) k :=
  funext fun a => Fin.ext (by match a with | ⟨0, _⟩ => rfl | ⟨1, _⟩ => rfl)

/-- The first product reads the projection at row `k`, column `i 1`. -/
theorem ridx_v0_eq (i : S10000x128.Idx) (k : Fin 128) : ridx_main_v0 i k = ix2 k (i 1) :=
  funext fun a => Fin.ext (by match a with | ⟨0, _⟩ => rfl | ⟨1, _⟩ => rfl)

/-- The second product reads the adjacency at row `i 0`, column `k`. -/
theorem lidx_v1_eq (i : S10000x128.Idx) (k : Fin 10000) : lidx_main_v1 i k = ix2 (i 0) k :=
  funext fun a => Fin.ext (by match a with | ⟨0, _⟩ => rfl | ⟨1, _⟩ => rfl)

/-- The second product reads the projected features at row `k`, column `i 1`. -/
theorem ridx_v1_eq (i : S10000x128.Idx) (k : Fin 10000) : ridx_main_v1 i k = ix2 k (i 1) :=
  funext fun a => Fin.ext (by match a with | ⟨0, _⟩ => rfl | ⟨1, _⟩ => rfl)

/-- Inside the second product's term `k`, the first product reads the features at row `k`, column `l`, -/
theorem lidx_v0_ridx_v1_eq (i : S10000x128.Idx) (k : Fin 10000) (l : Fin 128) :
    lidx_main_v0 (ridx_main_v1 i k) l = ix2 k l :=
  funext fun a => Fin.ext (by match a with | ⟨0, _⟩ => rfl | ⟨1, _⟩ => rfl)

/-- and the projection at row `l`, column `i 1`. -/
theorem ridx_v0_ridx_v1_eq (i : S10000x128.Idx) (k : Fin 10000) (l : Fin 128) :
    ridx_main_v0 (ridx_main_v1 i k) l = ix2 l (i 1) :=
  funext fun a => Fin.ext (by match a with | ⟨0, _⟩ => rfl | ⟨1, _⟩ => rfl)

/-- The bias, broadcast twice, is read at the unit `i 1`. -/
theorem idx_v2_v3_eq (i : S10000x128.Idx) : idx_main_v2 (idx_main_v3 i) = ix1 (i 1) :=
  funext fun a => Fin.ext (by match a with | ⟨0, _⟩ => rfl)

/-! ## The reference's value -/

theorem ref_is_projFirst (x0 : (⟨S10000x10000, .f32⟩ : BufTy).Contents (Elt Ideal))
    (x1 : (⟨S10000x128, .f32⟩ : BufTy).Contents (Elt Ideal)) (x2 : (⟨S128x128, .f32⟩ : BufTy).Contents (Elt Ideal))
    (x3 : (⟨S128, .f32⟩ : BufTy).Contents (Elt Ideal)) :
    Cert.ReferenceIdeal.Read.val_main_v10 (F := Ideal) x0 x1 x2 x3 = Cert.Gcn.outProjFirst x0 x1 x2 x3 := by
  funext i
  rw [val_main_v10_apply, val_main_v9_apply, val_main_cst_0_apply, val_main_v8_apply, val_main_v7_apply,
    val_main_cst_apply, val_main_v6_apply, val_main_v5_apply, val_main_v4_apply, val_main_v3_apply, val_main_v2_apply,
    val_main_v1_apply]
  simp only [val_main_v0_apply]
  simp only [lidx_v0_ridx_v1_eq, ridx_v0_ridx_v1_eq]
  simp only [lidx_v0_eq, ridx_v0_eq, lidx_v1_eq, ridx_v1_eq, idx_v2_v3_eq, Ideal.hostDivf_def, Ideal.hostUnary_exp_def,
    Ideal.hostNegf_def, Ideal.negf_def, Ideal.addf_def, Ideal.ofBits_def, Ideal.ofBits_one_f32, Cert.Gcn.outProjFirst,
    Cert.Gcn.zProjFirst, Cert.Gcn.proj, Ideal.logistic]
  rfl

/-! ## The reference's run, at the specification -/

/-- From any memory with zero counters, every weakly fair execution of the reference terminates with its result array
    holding the layer's output, projecting first, of the four argument arrays of the initial memory, and with the
    arguments unchanged. -/
theorem run_projFirst (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v10)
          = Cert.Gcn.outProjFirst (m' ((c.tc : Thread nD τ).loc main_arg0)) (m' ((c.tc : Thread nD τ).loc main_arg1))
              (m' ((c.tc : Thread nD τ).loc main_arg2)) (m' ((c.tc : Thread nD τ).loc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) :=
  (θ_run Cert.ReferenceIdeal.defs _ _).mono
    (fun _ h c => ⟨by rw [(h c).1, Read.val_main_v10_eq, ref_is_projFirst], (h c).2⟩)
    (Cert.ReferenceIdeal.Value.run (F := Ideal) m' ρ')

end Cert.Gcn.Ref

end
-- ==== Proof.lean ====
/-
  One dense graph-convolution layer, `out = logistic(An · X · W + bias)`, computed two ways.

  `An` is a 10000 × 10000 adjacency, `X` the 10000 × 128 node features, `W` a 128 × 128 projection, `bias` a row of
  128. The kernel streams `An` through sixteen blocks of 640 rows and, per block, AGGREGATES FIRST: the block against
  `X`, that against `W`, plus the bias row, through the logistic function; the last block overhangs the array by 240
  rows, which are never written back. The reference PROJECTS FIRST: `X · W`, then `An` against it, plus the bias,
  and spells the logistic function as `1 / (1 + exp(−z))`, which is what it is on the extended reals.

  At the ideal values a matrix product is a plain sum of products, so the two pre-activations at row `r`, unit `q` are

      ∑ k, ( ∑ j, An r j · X j k ) · W k q      and      ∑ j, An r j · ( ∑ k, X j k · W k q ).

  Exchanging the sums and moving a factor across one is distributivity, which fails on the extended reals at the
  infinities; the precondition makes every input finite, every entry is then a real number, and over the reals the
  two are equal. That is the algebraic claim. The three frames are the runs themselves: the kernel as printed (its
  output's contents never looked at), the idealized kernel (the same run that yields its value), and the reference.
  The idealization rewrote no operation of the kernel, so there is nothing for it to preserve beyond the text itself.
-/
import proofs.«160348_g65781719105877_cont_9to1c4b_269_17_alg».proof.Defs
import proofs.«160348_g65781719105877_cont_9to1c4b_269_17_alg».proof.Proof.Gen.Kernel
import proofs.«160348_g65781719105877_cont_9to1c4b_269_17_alg».proof.Proof.Gen.Kernel.Skeleton
import proofs.«160348_g65781719105877_cont_9to1c4b_269_17_alg».proof.Proof.Gen.Kernel.Launch
import proofs.«160348_g65781719105877_cont_9to1c4b_269_17_alg».proof.Proof.Gen.Kernel.Points
import proofs.«160348_g65781719105877_cont_9to1c4b_269_17_alg».proof.Proof.Gen.Kernel.Frame
import proofs.«160348_g65781719105877_cont_9to1c4b_269_17_alg».proof.Proof.Gen.KernelIdeal
import proofs.«160348_g65781719105877_cont_9to1c4b_269_17_alg».proof.Proof.Gen.KernelIdeal.Skeleton
import proofs.«160348_g65781719105877_cont_9to1c4b_269_17_alg».proof.Proof.Gen.KernelIdeal.Launch
import proofs.«160348_g65781719105877_cont_9to1c4b_269_17_alg».proof.Proof.Gen.KernelIdeal.Points
import proofs.«160348_g65781719105877_cont_9to1c4b_269_17_alg».proof.Proof.Gen.KernelIdeal.Frame
import proofs.«160348_g65781719105877_cont_9to1c4b_269_17_alg».proof.Proof.Gen.ReferenceIdeal
import proofs.«160348_g65781719105877_cont_9to1c4b_269_17_alg».proof.Proof.Gen.Pre_finite_inputs
import proofs.«160348_g65781719105877_cont_9to1c4b_269_17_alg».proof.Proof.Gen.ReferenceIdeal.Run
import proofs.«160348_g65781719105877_cont_9to1c4b_269_17_alg».proof.Proof.Gen.ReferenceIdeal.Read
import proofs.«160348_g65781719105877_cont_9to1c4b_269_17_alg».proof.Proof.RunBits
import proofs.«160348_g65781719105877_cont_9to1c4b_269_17_alg».proof.Proof.ValueIdeal
import proofs.«160348_g65781719105877_cont_9to1c4b_269_17_alg».proof.Proof.Assoc
import proofs.«160348_g65781719105877_cont_9to1c4b_269_17_alg».proof.Proof.Finite
import proofs.«160348_g65781719105877_cont_9to1c4b_269_17_alg».proof.Proof.RefValue
import Idealize.ShloMosaic.Adequacy
import Idealize.ShloMosaic.Init

noncomputable section

namespace Cert.Proof

open Idealize.ShloMosaic Idealize.SL.Sem

/-- The kernel as printed runs to the end, faults nowhere and leaves its four arguments as they were. -/
theorem frame_kernel : Cert.frame_Kernel := fun m ρ _ => Cert.Kernel.Body.frame (F := Bits) m ρ

/-- So does the idealized kernel: its value run, the result dropped. -/
theorem frame_ideal : Cert.frame_KernelIdeal := fun m ρ _ =>
  (θ_run Cert.KernelIdeal.defs _ _).mono (fun _ h c => (h c).2) (Cert.KernelIdeal.Val.run m ρ)

/-- And the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, all finite: the kernel's result array ends at the layer's output
    aggregating first, the reference's at the layer's output projecting first, and on real entries these are one
    function. -/
theorem algebraic : Cert.algebraic_KernelIdeal_ReferenceIdeal := by
  intro m ρ m' ρ' hpre hagree
  refine ⟨fun c => Cert.KernelIdeal.Val.outArr m c, Cert.KernelIdeal.Val.run m ρ, ?_⟩
  refine (θ_run Cert.ReferenceIdeal.defs _ _).mono (fun _ h c => ⟨(h c).1.trans ?_, (h c).2⟩)
    (Cert.Gcn.Ref.run_projFirst m' ρ')
  rw [(hagree c).1, (hagree c).2.1, (hagree c).2.2.1, (hagree c).2.2.2]
  obtain ⟨h0, h1, h2, -⟩ := Cert.Gcn.Finite.finite_inputs _ _ _ _ (hpre c)
  exact (Cert.Gcn.out_eq _ _ _ _ h0 h1 h2).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
